-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel

variable [Facts]

def fn {F : FTy → Type} [FloatOps F] (main_arg0 : FVec F S512x65536 .f32) (main_arg1 : FVec F S512x65536 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  main_v8
-- ==== Kernel.lean ====
abbrev S512x65536 : Shape := ⟨2, ![512, 65536]⟩
abbrev S512x1 : Shape := ⟨2, ![512, 1]⟩
abbrev S256x4096 : Shape := ⟨2, ![256, 4096]⟩
abbrev S256x1 : Shape := ⟨2, ![256, 1]⟩
abbrev S256x128 : Shape := ⟨2, ![256, 128]⟩
abbrev S256x32x128 : Shape := ⟨3, ![256, 32, 128]⟩
abbrev S256 : Shape := ⟨1, ![256]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S512x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_28 : BitVec 32 := 0#32
  let v42 : BitVec 1 := Scalar.cmpi .ne v41 c0_i32_28
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  reduces_S256x32x128_S256x128 : S256x32x128.Reduces [1] S256x128
  reduces_S256x128_S256 : S256x128.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S512x1_S_d0_1 : S512x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x65536.size a
  hwx0_0 : ∀ i : grid0.Coords, EltTy.bits .f32 = 32 ∨ (Rect.block (s := S512x65536) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S512x65536.size a
  hwx0_1 : ∀ i : grid0.Coords, EltTy.bits .f32 = 32 ∨ (Rect.block (s := S512x65536) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S512x1.size a
  hwx0_2 : ∀ i : grid0.Coords, EltTy.bits .f32 = 32 ∨ (Rect.block (s := S512x1) S256x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x65536 : Shape := ⟨2, ![512, 65536]⟩
abbrev S_ : Shape := ⟨0, ![]⟩
abbrev S512 : Shape := ⟨1, ![512]⟩
abbrev S512x1 : Shape := ⟨2, ![512, 1]⟩

abbrev nBuf : Space → Nat
  | .hbm => 54
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S512x1, .f32⟩
  | .hbm, ⟨13, _⟩ => ⟨S512x65536, .f32⟩
  | .hbm, ⟨14, _⟩ => ⟨S512x65536, .f32⟩
  | .hbm, ⟨15, _⟩ => ⟨S512x1, .f32⟩
  | .hbm, ⟨16, _⟩ => ⟨S512x65536, .f32⟩
  | .hbm, ⟨17, _⟩ => ⟨S512x65536, .f32⟩
  | .hbm, ⟨18, _⟩ => ⟨S512x65536, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512x65536, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512x65536, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  reducesTo_S512x65536_S512_d1 : S512x65536.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x65536_0_1 : S512x1.BroadcastsInDim S512x65536 (![0, 1] : Fin 2 → Fin S512x65536.rank)
  reducesTo_S512_S_d0 : S512.ReducesTo [0] S_

variable [Facts₀]

class Facts : Prop extends Facts₀ where

variable [Facts]
-- ==== Proof.Pieces.lean ====
import proofs.«148657_j45646912422065_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the body leaves in the five running-sum buffers and in the output block, as the body's
    own arithmetic applied to the point's two input blocks and to what the buffers held before. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The five buffers after a point, from the point's blocks `x0`, `x1` and the buffers' contents before: the running
    sums of `x`, `y`, `x²`, `y²`, `x·y` each advanced by the block's lane-group sums. -/
abbrev up0 (x0 : Vec F S256x4096 .f32) (p : Vec F S256x128 .f32) : Vec F S256x128 .f32 := k0_pay16 x0 p
abbrev up1 (x1 : Vec F S256x4096 .f32) (p : Vec F S256x128 .f32) : Vec F S256x128 .f32 := k0_pay17 x1 p
abbrev up2 (x0 : Vec F S256x4096 .f32) (p : Vec F S256x128 .f32) : Vec F S256x128 .f32 := k0_pay18 x0 p
abbrev up3 (x1 : Vec F S256x4096 .f32) (p : Vec F S256x128 .f32) : Vec F S256x128 .f32 := k0_pay1 (k0_pay19 x1 p)
abbrev up4 (x0 x1 : Vec F S256x4096 .f32) (p : Vec F S256x128 .f32) : Vec F S256x128 .f32 := k0_pay2 (k0_pay14 x0) (k0_pay15 x1) p

/-- The output block from the five finished running sums: the loss of each row. -/
abbrev lossBlock (n0 n1 n2 n3 n4 : Vec F S256x128 .f32) : Vec F S256x1 .f32 :=
  k0_pay3 (k0_pay6 n0 n1 n4) (k0_pay7 n0 n1 n2 n3) (k0_pay8 (F := F))

/-- The first column block of a row block: buffer 0 is zeroed, then advanced. -/
theorem first_0 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : ¬cond0_1 i) (x0 x1 : Vec F S256x4096 .f32) :
    sout0_A_0 c i arg2 harg2 arg3 harg3 arg4 harg4 arg5 harg5 arg6 harg6 arg7 harg7 arg8 harg8 arg9 harg9 hc0 hc1 x0 x1 = up0 x0 (k0_pay9 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x128) hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- The first column block of a row block: buffer 1 is zeroed, then advanced. -/
theorem first_1 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : ¬cond0_1 i) (x0 x1 : Vec F S256x4096 .f32) :
    sout0_A_1 c i arg2 harg2 arg3 harg3 arg4 harg4 arg5 harg5 arg6 harg6 arg7 harg7 arg8 harg8 arg9 harg9 hc0 hc1 x0 x1 = up1 x1 (k0_pay10 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x128) hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- The first column block of a row block: buffer 2 is zeroed, then advanced. -/
theorem first_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : ¬cond0_1 i) (x0 x1 : Vec F S256x4096 .f32) :
    sout0_A_2 c i arg2 harg2 arg3 harg3 arg4 harg4 arg5 harg5 arg6 harg6 arg7 harg7 arg8 harg8 arg9 harg9 hc0 hc1 x0 x1 = up2 x0 (k0_pay11 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x128) hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- The first column block of a row block: buffer 3 is zeroed, then advanced. -/
theorem first_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : ¬cond0_1 i) (x0 x1 : Vec F S256x4096 .f32) :
    sout0_A_3 c i arg2 harg2 arg3 harg3 arg4 harg4 arg5 harg5 arg6 harg6 arg7 harg7 arg8 harg8 arg9 harg9 hc0 hc1 x0 x1 = up3 x1 (k0_pay12 (F := F)) := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x128) hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- The first column block of a row block: buffer 4 is zeroed, then advanced. -/
theorem first_4 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : ¬cond0_1 i) (x0 x1 : Vec F S256x4096 .f32) :
    sout0_A_4 c i arg2 harg2 arg3 harg3 arg4 harg4 arg5 harg5 arg6 harg6 arg7 harg7 arg8 harg8 arg9 harg9 hc0 hc1 x0 x1 = up4 x0 x1 (k0_pay13 (F := F)) := by
  unfold sout0_A_4
  rw [View.read_writes_eq_canon _ _ _ (scover0_A_4 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x128) hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A middle column block: buffer 0 is advanced from what the point before left. -/
theorem middle_0 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (x0 x1 : Vec F S256x4096 .f32) (xs0 xs1 xs2 xs3 xs4 : Vec F S256x128 .f32) :
    sout0_B_0 c i arg2 harg2 arg3 harg3 arg4 harg4 arg5 harg5 arg6 harg6 arg7 harg7 arg8 harg8 arg9 harg9 hc0 hc1 x0 x1 xs0 xs1 xs2 xs3 xs4 = up0 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A middle column block: buffer 1 is advanced from what the point before left. -/
theorem middle_1 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (x0 x1 : Vec F S256x4096 .f32) (xs0 xs1 xs2 xs3 xs4 : Vec F S256x128 .f32) :
    sout0_B_1 c i arg2 harg2 arg3 harg3 arg4 harg4 arg5 harg5 arg6 harg6 arg7 harg7 arg8 harg8 arg9 harg9 hc0 hc1 x0 x1 xs0 xs1 xs2 xs3 xs4 = up1 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A middle column block: buffer 2 is advanced from what the point before left. -/
theorem middle_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (x0 x1 : Vec F S256x4096 .f32) (xs0 xs1 xs2 xs3 xs4 : Vec F S256x128 .f32) :
    sout0_B_2 c i arg2 harg2 arg3 harg3 arg4 harg4 arg5 harg5 arg6 harg6 arg7 harg7 arg8 harg8 arg9 harg9 hc0 hc1 x0 x1 xs0 xs1 xs2 xs3 xs4 = up2 x0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A middle column block: buffer 3 is advanced from what the point before left. -/
theorem middle_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (x0 x1 : Vec F S256x4096 .f32) (xs0 xs1 xs2 xs3 xs4 : Vec F S256x128 .f32) :
    sout0_B_3 c i arg2 harg2 arg3 harg3 arg4 harg4 arg5 harg5 arg6 harg6 arg7 harg7 arg8 harg8 arg9 harg9 hc0 hc1 x0 x1 xs0 xs1 xs2 xs3 xs4 = up3 x1 xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A middle column block: buffer 4 is advanced from what the point before left. -/
theorem middle_4 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (x0 x1 : Vec F S256x4096 .f32) (xs0 xs1 xs2 xs3 xs4 : Vec F S256x128 .f32) :
    sout0_B_4 c i arg2 harg2 arg3 harg3 arg4 harg4 arg5 harg5 arg6 harg6 arg7 harg7 arg8 harg8 arg9 harg9 hc0 hc1 x0 x1 xs0 xs1 xs2 xs3 xs4 = up4 x0 x1 xs4 := by
  unfold sout0_B_4
  rw [View.read_writes_eq_canon _ _ _ (scover0_B_4 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A last column block: buffer 0 is advanced from what the point before left. -/
theorem last_0 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    sout0_C_0 c i arg2 harg2 arg3 harg3 arg4 harg4 arg5 harg5 arg6 harg6 arg7 harg7 arg8 harg8 arg9 harg9 hc0 hc1 x0 x1 xs0 xs1 xs2 xs3 xs4 = up0 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A last column block: buffer 1 is advanced from what the point before left. -/
theorem last_1 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    sout0_C_1 c i arg2 harg2 arg3 harg3 arg4 harg4 arg5 harg5 arg6 harg6 arg7 harg7 arg8 harg8 arg9 harg9 hc0 hc1 x0 x1 xs0 xs1 xs2 xs3 xs4 = up1 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A last column block: buffer 2 is advanced from what the point before left. -/
theorem last_2 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    sout0_C_2 c i arg2 harg2 arg3 harg3 arg4 harg4 arg5 harg5 arg6 harg6 arg7 harg7 arg8 harg8 arg9 harg9 hc0 hc1 x0 x1 xs0 xs1 xs2 xs3 xs4 = up2 x0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A last column block: buffer 3 is advanced from what the point before left. -/
theorem last_3 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    sout0_C_3 c i arg2 harg2 arg3 harg3 arg4 harg4 arg5 harg5 arg6 harg6 arg7 harg7 arg8 harg8 arg9 harg9 hc0 hc1 x0 x1 xs0 xs1 xs2 xs3 xs4 = up3 x1 xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- A last column block: buffer 4 is advanced from what the point before left. -/
theorem last_4 (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    sout0_C_4 c i arg2 harg2 arg3 harg3 arg4 harg4 arg5 harg5 arg6 harg6 arg7 harg7 arg8 harg8 arg9 harg9 hc0 hc1 x0 x1 xs0 xs1 xs2 xs3 xs4 = up4 x0 x1 xs4 := by
  unfold sout0_C_4
  rw [View.read_writes_eq_canon _ _ _ (scover0_C_4 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

/-- The last column block of a row block stores the rows' losses, computed from the five buffers as just advanced. -/
theorem last_out (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (x0 x1 : Vec F S256x4096 .f32) (xs0 xs1 xs2 xs3 xs4 : Vec F S256x128 .f32) :
    out0_C_2 c i arg2 harg2 arg3 harg3 arg4 harg4 arg5 harg5 arg6 harg6 arg7 harg7 arg8 harg8 arg9 harg9 hc0 hc1 x0 x1 xs0 xs1 xs2 xs3 xs4
      = lossBlock (up0 x0 xs0) (up1 x1 xs1) (up2 x0 xs2) (up3 x1 xs3) (up4 x0 x1 xs4) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz]
  simp only [View.readCov_unit_zero (S := S256x128) _ hz, View.readAt_eq_ld, harg2.read_unread, harg3.read_unread, harg5.read_unread, harg6.read_unread, harg7.read_unread, harg8.read_unread, harg9.read_unread, View.ld_unit_zero (S := S256x4096) hz, View.ld_unit_zero (S := S256x128) hz]

end Cert.KernelIdeal.Pieces
end
-- ==== Proof.Moments.lean ====
/-
  Means, variances and covariances of a row, two ways, on the extended reals.

  A row of `N = 65536` entries has mean `μ = (Σ x) / N`.  Its covariance with another row can be taken from the
  centred entries, `(Σ (x - μx)(y - μy)) / N`, or from the raw moments, `(Σ x y) · c - (Σ x · c)(Σ y · c)` with
  `c = 1/N`; the variance is the covariance of a row with itself.  When every entry is a real number the two agree:
  expanding the centred product gives `Σ x y - μy Σ x - μx Σ y + N μx μy`, and `N c = 1`.  The identity needs the
  entries real: it distributes products over sums and cancels, which infinite values do not allow.
  The concordance loss of a row pair is one expression of the two means, the two variances and the covariance, so
  it is the same whichever way those five numbers were obtained.
  Division by the word for `65536` is multiplication by the word for `2^-16`: both are exact powers of two.
-/
import Idealize.ShloMosaic.PureOps.Ideal.Laws
import Idealize.ShloMosaic.Lib.IdealHost

noncomputable section

namespace Cert.CCC

open Idealize.ShloMosaic

/-- The words the two programs are written with. -/
abbrev w0 : EReal := Ideal.ofBits .f32 0x00000000#32
abbrev wN : EReal := Ideal.ofBits .f32 0x47800000#32
abbrev wC : EReal := Ideal.ofBits .f32 0x37800000#32
abbrev w1 : EReal := Ideal.ofBits .f32 0x3F800000#32
abbrev w2 : EReal := Ideal.ofBits .f32 0x40000000#32
abbrev wEps : EReal := Ideal.ofBits .f32 0x322BCC77#32
abbrev w512 : EReal := Ideal.ofBits .f32 0x44000000#32

theorem w0_eq : w0 = 0 := Ideal.ofBits_zero_f32

/-- `0x47800000` is `65536`. -/
theorem wN_eq : wN = ((65536 : ℝ) : EReal) := by
  simp [Ideal.ofBits, Ideal.ieee, -EReal.coe_mul]
  norm_num

/-- `0x37800000` is `2^-16 = 1/65536`. -/
theorem wC_eq : wC = ((1 / 65536 : ℝ) : EReal) := by
  simp [Ideal.ofBits, Ideal.ieee, -EReal.coe_mul]
  norm_num

/-- A finite sum of real numbers, taken on the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {ι : Type} [Fintype ι]

/-- The mean from the raw sum and the reciprocal. -/
def meanK (X : ι → EReal) : EReal := (∑ k, X k) * wC
/-- The covariance from the raw moments. -/
def covK (X Y : ι → EReal) : EReal := (∑ k, X k * Y k) * wC - meanK X * meanK Y
/-- The mean as a quotient (the sum started from the zero word). -/
def meanR (X : ι → EReal) : EReal := Ideal.div (w0 + ∑ k, X k) wN
/-- The covariance from the centred entries. -/
def covR (X Y : ι → EReal) : EReal := Ideal.div (w0 + ∑ k, (X k - meanR X) * (Y k - meanR Y)) wN

/-- The concordance loss of a row pair from its two means, two variances and covariance. -/
def lossOf (mx my vx vy cxy : EReal) : EReal :=
  w1 - Ideal.div (w2 * cxy) (((vx + vy) + (mx - my) * (mx - my)) + wEps)

/-- The loss with the five numbers taken from the raw moments. -/
def rowLossK (X Y : ι → EReal) : EReal := lossOf (meanK X) (meanK Y) (covK X X) (covK Y Y) (covK X Y)
/-- The loss with the five numbers taken from the centred entries. -/
def rowLossR (X Y : ι → EReal) : EReal := lossOf (meanR X) (meanR Y) (covR X X) (covR Y Y) (covR X Y)

/-- The mean of all the rows' losses (the sum started from the zero word, divided by the word for `512`). -/
def meanLoss {κ : Type} [Fintype κ] (L : κ → EReal) : EReal := Ideal.div (w0 + ∑ p, L p) w512

/-- The two means are the same extended real, whatever the entries: a quotient by `65536` is the product with `2^-16`. -/
theorem mean_eq (X : ι → EReal) : meanK X = meanR X := by
  unfold meanK meanR
  rw [wN_eq, Ideal.div_coe (by norm_num), w0_eq, zero_add, wC_eq]

theorem meanK_coe (a : ι → ℝ) : meanK (fun k => ((a k : ℝ) : EReal)) = (((∑ k, a k) * (1 / 65536) : ℝ) : EReal) := by
  unfold meanK
  rw [wC_eq, coe_sum, ← EReal.coe_mul]

/-- For rows of real numbers the two covariances agree. -/
theorem cov_eq (a b : ι → ℝ) (hcard : Fintype.card ι = 65536) :
    covK (fun k => ((a k : ℝ) : EReal)) (fun k => ((b k : ℝ) : EReal))
      = covR (fun k => ((a k : ℝ) : EReal)) (fun k => ((b k : ℝ) : EReal)) := by
  unfold covK covR
  rw [← mean_eq, ← mean_eq, meanK_coe, meanK_coe, wC_eq, wN_eq, Ideal.div_coe (by norm_num), w0_eq, zero_add]
  simp only [← EReal.coe_mul, ← EReal.coe_sub, coe_sum]
  refine congrArg _ ?_
  have hN : ((Fintype.card ι : ℕ) : ℝ) = 65536 := by rw [hcard]; norm_num
  have e : ∀ α β : ℝ, ∑ k, (a k - α) * (b k - β)
      = (∑ k, a k * b k) - β * (∑ k, a k) - α * (∑ k, b k) + 65536 * (α * β) := by
    intro α β
    have e1 : ∀ k, (a k - α) * (b k - β) = a k * b k - β * a k - α * b k + α * β := fun k => by ring
    rw [Finset.sum_congr rfl fun k _ => e1 k, Finset.sum_add_distrib, Finset.sum_sub_distrib, Finset.sum_sub_distrib,
      ← Finset.mul_sum, ← Finset.mul_sum, Finset.sum_const, Finset.card_univ, nsmul_eq_mul, hN]
  rw [e]
  ring

/-- So for rows of real numbers the loss is the same either way. -/
theorem rowLoss_eq (a b : ι → ℝ) (hcard : Fintype.card ι = 65536) :
    rowLossK (fun k => ((a k : ℝ) : EReal)) (fun k => ((b k : ℝ) : EReal))
      = rowLossR (fun k => ((a k : ℝ) : EReal)) (fun k => ((b k : ℝ) : EReal)) := by
  unfold rowLossK rowLossR
  rw [mean_eq, mean_eq, cov_eq a a hcard, cov_eq b b hcard, cov_eq a b hcard]

end Cert.CCC

end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowRecords.lean ====
/-
  Layout operations read at an index given by coordinates, for arrays whose rows are short records: a column of a
  matrix taken out as a vector; a vector put back as a one-entry-wide column; a row of length `b * c` regrouped as a
  `b` by `c` table and back; and a row-wise stack of 3 by 3 matrices assembled from nine columns. General in the
  number of rows; stated over indices built from coordinates so that they apply by unification.
-/
import Idealize.ShloMosaic.Lib.ValueLayout

namespace Cert.Lib.RowRecords

open Idealize.ShloMosaic Idealize.ShloMosaic.ValueIdx

variable {α : Type}

/-- A column `[a, 1]` cast to the vector `[a]` reads, at `i`, the column's entry in row `i`: both indices have
    row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `o` of an `[a, w]` matrix, cut out as an `[a, 1]` slice and cast to a vector, reads at `i` the matrix at
    `(i, o)`. -/
theorem column_apply {a w : ℕ} (o : ℕ) (X : (⟨2, ![a, w]⟩ : Shape).Idx → α)
    (hs : (⟨2, ![a, w]⟩ : Shape).Slices ![0, o] ⟨2, ![a, 1]⟩) (hc : (⟨2, ![a, 1]⟩ : Shape).ShapeCasts ⟨1, ![a]⟩)
    (i : Fin a) (k : Fin w) (hk : k.val = o) :
    shapeCast ⟨1, ![a]⟩ (extractStridedSlice ⟨2, ![a, 1]⟩ ![0, o] X hs) hc (ix1 i) = X (ix2 i k) :=
  (shapeCast_a1_a_apply _ hc i).trans (slice2_axis1_apply o X hs i (0 : Fin 1) k (by rw [hk]; rfl))

/-- A vector `[a]` broadcast along its own axis into the column `[a, 1]` reads, at `(i, u)`, the vector at `i`. -/
theorem broadcastInDim_a_a1_apply {a : ℕ} (v : (⟨1, ![a]⟩ : Shape).Idx → α)
    (dims : Fin (⟨1, ![a]⟩ : Shape).rank → Fin (⟨2, ![a, 1]⟩ : Shape).rank) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else (ix2 i u (dims 0)).val
    rw [hd]
    split
    · have := i.isLt; omega
    · rfl

/-- A matrix `[a, b]` broadcast along its own two axes into `[a, b, 1]` reads, at `(i, j, u)`, the matrix at `(i, j)`. -/
theorem broadcastInDim_ab_ab1_apply {a b : ℕ} (v : (⟨2, ![a, b]⟩ : Shape).Idx → α)
    (dims : Fin (⟨2, ![a, b]⟩ : Shape).rank → Fin (⟨3, ![a, b, 1]⟩ : Shape).rank) (hd0 : dims 0 = 0) (hd1 : dims 1 = 1)
    (h : (⟨2, ![a, b]⟩ : Shape).BroadcastsInDim ⟨3, ![a, b, 1]⟩ dims) (i : Fin a) (j : Fin b) (u : Fin 1) :
    broadcastInDim ⟨3, ![a, b, 1]⟩ dims h v (ix3 i j u) = v (ix2 i j) := by
  refine broadcastInDim_apply dims h v (ix3 i j u) (ix2 i j) fun ax => ?_
  match ax with
  | ⟨0, _⟩ =>
    show i.val = if a = 1 then 0 else (ix3 i j u (dims 0)).val
    rw [hd0]
    split
    · have := i.isLt; omega
    · rfl
  | ⟨1, _⟩ =>
    show j.val = if b = 1 then 0 else (ix3 i j u (dims 1)).val
    rw [hd1]
    split
    · have := j.isLt; omega
    · rfl

/-- Rows of length `n = b * c` regrouped as `b` by `c` tables: the table entry `(j, l)` of row `i` is the row's entry
    `j * c + l`. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (j : Fin b) (l : Fin c) (q : Fin n) (hq : q.val = j.val * c + l.val) :
    shapeCast ⟨3, ![a, b, c]⟩ x h (ix3 i j l) = x (ix2 i q) :=
  shapeCast_apply x h _ _ (by
    rw [Shape.rowMajor_val_two, Shape.rowMajor_val_three]
    show i.val * n + q.val = (i.val * b + j.val) * c + l.val
    rw [hq, hn]; ring)

/-- And back: `b` by `c` tables flattened to rows of length `n = b * c`; the row's entry `j * c + l` is the table
    entry `(j, l)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (l : Fin c) (q : Fin n) (hq : q.val = j.val * c + l.val) :
    shapeCast ⟨2, ![a, n]⟩ x h (ix2 i q) = x (ix3 i j l) :=
  shapeCast_apply x h _ _ (by
    rw [Shape.rowMajor_val_two, Shape.rowMajor_val_three]
    show (i.val * b + j.val) * c + l.val = i.val * n + q.val
    rw [hq, hn]; ring)

/-- The nine columns of a row-wise stack of 3 by 3 matrices, listed in the order `(0,0), (0,1), …, (2,2)`. -/
def nineColumns {a : ℕ} (M : Fin 3 → Fin 3 → ((⟨2, ![a, 1]⟩ : Shape).Idx → α)) : List ((s : Shape) × (s.Idx → α)) :=
  [⟨⟨2, ![a, 1]⟩, M 0 0⟩, ⟨⟨2, ![a, 1]⟩, M 0 1⟩, ⟨⟨2, ![a, 1]⟩, M 0 2⟩,
   ⟨⟨2, ![a, 1]⟩, M 1 0⟩, ⟨⟨2, ![a, 1]⟩, M 1 1⟩, ⟨⟨2, ![a, 1]⟩, M 1 2⟩,
   ⟨⟨2, ![a, 1]⟩, M 2 0⟩, ⟨⟨2, ![a, 1]⟩, M 2 1⟩, ⟨⟨2, ![a, 1]⟩, M 2 2⟩]

/-- Nine one-entry-wide columns joined side by side: column `k` of the result, in row `r`, is the `k`-th column's entry
    in row `r` (the columns before it take up `k` positions). -/
theorem nineColumns_apply {a : ℕ} (M : Fin 3 → Fin 3 → ((⟨2, ![a, 1]⟩ : Shape).Idx → α))
    (hcat : Shape.Concatenates ((nineColumns M).map (·.1)) ⟨2, ![a, 9]⟩ 1) (r : Fin a)
    (k : ℕ) (hk : k < 9) (hk' : k < (nineColumns M).length) (x₁ : (⟨2, ![a, 1]⟩ : Shape).Idx → α)
    (hx : (nineColumns M)[k] = ⟨⟨2, ![a, 1]⟩, x₁⟩)
    (hpre : ((((nineColumns M).take k).map (·.1)).map fun s : Shape =>
      if h : s.rank = (⟨2, ![a, 9]⟩ : Shape).rank then s.size ((1 : Fin (⟨2, ![a, 9]⟩ : Shape).rank).cast h.symm) else 0).sum = k) :
    concatenate ⟨2, ![a, 9]⟩ 1 (nineColumns M) hcat (ix2 r ⟨k, hk⟩) = x₁ (ix2 r (0 : Fin 1)) :=
  concatenate_apply_piece (1 : Fin (⟨2, ![a, 9]⟩ : Shape).rank) (nineColumns M) hcat (ix2 r ⟨k, hk⟩) k hk' _ x₁ hx rfl k hpre
    (ix2 r (0 : Fin 1))
    (fun b hb => by
      match b with
      | ⟨0, _⟩ => rfl
      | ⟨1, _⟩ => exact absurd rfl hb)
    (by show k + 0 = k; rfl)

/-- Those nine columns regrouped as a stack of 3 by 3 matrices: the entry `(i, j)` of the matrix in row `r` is column
    `M i j` in row `r`. -/
theorem stack3x3_of_columns {a : ℕ} (M : Fin 3 → Fin 3 → ((⟨2, ![a, 1]⟩ : Shape).Idx → α))
    (hcat : Shape.Concatenates ((nineColumns M).map (·.1)) ⟨2, ![a, 9]⟩ 1)
    (hcast : (⟨2, ![a, 9]⟩ : Shape).ShapeCasts ⟨3, ![a, 3, 3]⟩) (r : Fin a) (i j : Fin 3) :
    shapeCast ⟨3, ![a, 3, 3]⟩ (concatenate ⟨2, ![a, 9]⟩ 1 (nineColumns M) hcat) hcast (ix3 r i j)
      = M i j (ix2 r (0 : Fin 1)) := by
  have hq : i.val * 3 + j.val < 9 := by have := i.isLt; have := j.isLt; omega
  rw [shapeCast_an_abc_apply _ hcast (by norm_num) r i j ⟨i.val * 3 + j.val, hq⟩ rfl]
  match i, j with
  | ⟨0, _⟩, ⟨0, _⟩ => exact nineColumns_apply M hcat r 0 (by norm_num) (by show (0 : ℕ) < 9; norm_num) _ rfl rfl
  | ⟨0, _⟩, ⟨1, _⟩ => exact nineColumns_apply M hcat r 1 (by norm_num) (by show (1 : ℕ) < 9; norm_num) _ rfl rfl
  | ⟨0, _⟩, ⟨2, _⟩ => exact nineColumns_apply M hcat r 2 (by norm_num) (by show (2 : ℕ) < 9; norm_num) _ rfl rfl
  | ⟨1, _⟩, ⟨0, _⟩ => exact nineColumns_apply M hcat r 3 (by norm_num) (by show (3 : ℕ) < 9; norm_num) _ rfl rfl
  | ⟨1, _⟩, ⟨1, _⟩ => exact nineColumns_apply M hcat r 4 (by norm_num) (by show (4 : ℕ) < 9; norm_num) _ rfl rfl
  | ⟨1, _⟩, ⟨2, _⟩ => exact nineColumns_apply M hcat r 5 (by norm_num) (by show (5 : ℕ) < 9; norm_num) _ rfl rfl
  | ⟨2, _⟩, ⟨0, _⟩ => exact nineColumns_apply M hcat r 6 (by norm_num) (by show (6 : ℕ) < 9; norm_num) _ rfl rfl
  | ⟨2, _⟩, ⟨1, _⟩ => exact nineColumns_apply M hcat r 7 (by norm_num) (by show (7 : ℕ) < 9; norm_num) _ rfl rfl
  | ⟨2, _⟩, ⟨2, _⟩ => exact nineColumns_apply M hcat r 8 (by norm_num) (by show (8 : ℕ) < 9; norm_num) _ rfl rfl

end Cert.Lib.RowRecords
-- ==== Proof.LibSumLayout.lean ====
/-
  Sums read at an index given by coordinates, over the extended reals, and sums over all the indices of a small array.
    * a sum along the middle axis of an `[a, b, c]` array, read at `(r, l)`, is the sum over `g` of the entries `(r, g, l)`
      (what summing the lane groups of a row regrouped as `b` groups of `c` lanes comes to);
    * a sum over all the indices of a vector `[n]` is the sum over its coordinate;
    * a sum over all the indices of a column `[n, 1]` is the sum over the rows of the entries `(p, 0)`.
  General in the extents; the reduction's side conditions are variables, so that whatever proofs a program's text
  carries unify with them.
-/
import Idealize.ShloMosaic.Lib.ValueIdx
import Idealize.ShloMosaic.PureOps.Ideal.Laws

namespace Cert.Lib.SumLayout

open Idealize.ShloMosaic Idealize.ShloMosaic.ValueIdx

/-- A sum along the middle axis, read at `(r, l)`. -/
theorem sum_axis1_of3_apply {a b c : ℕ} (v : FVec Ideal ⟨3, ![a, b, c]⟩ .f32) (acc : BitVec 32)
    (h : (⟨3, ![a, b, c]⟩ : Shape).Reduces [1] ⟨2, ![a, c]⟩) (hφ : FKind.Formats .f32) (hacc : acc = FKind.add.neutral .f32 hφ)
    (r : Fin a) (l : Fin c) :
    multiReduction .add [1] ⟨2, ![a, c]⟩ v acc h hφ hacc (ix2 r l) = ∑ g : Fin b, v (ix3 r g l) := by
  refine (Ideal.multiReduction_add_single v acc h hφ hacc (ix2 r l)).trans ?_
  refine Finset.sum_congr rfl fun g _ => congrArg v (funext fun d => ?_)
  match d with
  | ⟨0, _⟩ => rfl
  | ⟨1, _⟩ => rfl
  | ⟨2, _⟩ => rfl

/-- A sum over the indices of a vector is the sum over its coordinate. -/
theorem sum_idx1 {M : Type*} [AddCommMonoid M] {n : ℕ} (f : (⟨1, ![n]⟩ : Shape).Idx → M) : ∑ j, f j = ∑ p : Fin n, f (ix1 p) :=
  Fintype.sum_equiv ⟨fun j => j 0, fun p => ix1 p, fun j => (eq_ix1 j).symm, fun p => rfl⟩ _ _ fun j => congrArg f (eq_ix1 j)

/-- A sum over the indices of a column is the sum over its rows. -/
theorem sum_idx_col {M : Type*} [AddCommMonoid M] {n : ℕ} (f : (⟨2, ![n, 1]⟩ : Shape).Idx → M) :
    ∑ j, f j = ∑ p : Fin n, f (ix2 p (0 : Fin 1)) := by
  rw [sum_idx2]
  exact Finset.sum_congr rfl fun p _ => Fin.sum_univ_one _

end Cert.Lib.SumLayout
-- ==== Proof.Payloads.lean ====
/-
  The body's arithmetic read entry by entry on the extended reals.

  A point's input block is `256` rows of `4096` columns, regrouped as `32` lane groups of `128` lanes: entry
  `(r, g, l)` of the regrouped block is entry `(r, g · 128 + l)`.  Each of the five running-sum buffers is advanced, at
  `(r, l)`, by the sum over the groups `g` of the block's entries (of `x`, `y`, `x²`, `y²`, `x·y`) in lane `l`.  At the
  last column block the rows' losses are computed from the lane totals: the sum over the lanes of each buffer, times
  `2^-16`, gives the two means and the three second moments, and the loss is the concordance expression of the means,
  the variances and the covariance taken from those raw moments.
-/
import proofs.«148657_j45646912422065_2_alg».proof.Proof.Pieces
import proofs.«148657_j45646912422065_2_alg».proof.Proof.Moments
import proofs.«148657_j45646912422065_2_alg».proof.Proof.LibReduceLayout
import proofs.«148657_j45646912422065_2_alg».proof.Proof.LibColumnLayout
import proofs.«148657_j45646912422065_2_alg».proof.Proof.LibRowRecords
import proofs.«148657_j45646912422065_2_alg».proof.Proof.LibSumLayout
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen Cert.KernelIdeal.Pieces Cert.CCC

/-- Lane `l` of lane group `g`: column `g · 128 + l` of a block. -/
def lane (g : Fin 32) (l : Fin 128) : Fin 4096 := ⟨g.val * 128 + l.val, by have := g.isLt; have := l.isLt; omega⟩

/-- A sum over the lane groups, read at row `r`, lane `l`. -/
theorem groupSum_apply (v : FVec Ideal S256x32x128 .f32) (r : Fin 256) (l : Fin 128) :
    multiReduction (F := Ideal) .add [1] S256x128 v 0x00000000#32 reduces_S256x32x128_S256x128 (.inl rfl) rfl (ix2 r l)
      = ∑ g : Fin 32, v (ix3 r g l) :=
  Cert.Lib.SumLayout.sum_axis1_of3_apply v _ reduces_S256x32x128_S256x128 _ _ r l

/-- The regrouped block read at `(r, g, l)`. -/
theorem regroup_apply (x : FVec Ideal S256x4096 .f32) (r : Fin 256) (g : Fin 32) (l : Fin 128) :
    shapeCast S256x32x128 x shapeCasts_S256x4096_S256x32x128 (ix3 r g l) = x (ix2 r (lane g l)) :=
  Cert.Lib.RowRecords.shapeCast_an_abc_apply x shapeCasts_S256x4096_S256x32x128 (by norm_num) r g l (lane g l) rfl

/-- The running sum of `x` advanced. -/
theorem up0_apply (x0 : FVec Ideal S256x4096 .f32) (p : FVec Ideal S256x128 .f32) (r : Fin 256) (l : Fin 128) :
    up0 (F := Ideal) x0 p (ix2 r l) = p (ix2 r l) + ∑ g : Fin 32, x0 (ix2 r (lane g l)) := by
  show shapeCast S256x128 (addf p (multiReduction (F := Ideal) .add [1] S256x128 (shapeCast S256x32x128 x0 shapeCasts_S256x4096_S256x32x128)
    0x00000000#32 reduces_S256x32x128_S256x128 (.inl rfl) rfl)) shapeCasts_S256x128_S256x128 (ix2 r l) = _
  rw [shapeCast_self]
  show p (ix2 r l) + multiReduction (F := Ideal) .add [1] S256x128 (shapeCast S256x32x128 x0 shapeCasts_S256x4096_S256x32x128)
    0x00000000#32 reduces_S256x32x128_S256x128 (.inl rfl) rfl (ix2 r l) = _
  rw [groupSum_apply]
  exact congrArg (p (ix2 r l) + ·) (Finset.sum_congr rfl fun g _ => regroup_apply x0 r g l)

/-- The running sum of `y` advanced. -/
theorem up1_apply (x1 : FVec Ideal S256x4096 .f32) (p : FVec Ideal S256x128 .f32) (r : Fin 256) (l : Fin 128) :
    up1 (F := Ideal) x1 p (ix2 r l) = p (ix2 r l) + ∑ g : Fin 32, x1 (ix2 r (lane g l)) := by
  show shapeCast S256x128 (addf p (multiReduction (F := Ideal) .add [1] S256x128 (shapeCast S256x32x128 x1 shapeCasts_S256x4096_S256x32x128)
    0x00000000#32 reduces_S256x32x128_S256x128 (.inl rfl) rfl)) shapeCasts_S256x128_S256x128 (ix2 r l) = _
  rw [shapeCast_self]
  show p (ix2 r l) + multiReduction (F := Ideal) .add [1] S256x128 (shapeCast S256x32x128 x1 shapeCasts_S256x4096_S256x32x128)
    0x00000000#32 reduces_S256x32x128_S256x128 (.inl rfl) rfl (ix2 r l) = _
  rw [groupSum_apply]
  exact congrArg (p (ix2 r l) + ·) (Finset.sum_congr rfl fun g _ => regroup_apply x1 r g l)

/-- The running sum of `x²` advanced. -/
theorem up2_apply (x0 : FVec Ideal S256x4096 .f32) (p : FVec Ideal S256x128 .f32) (r : Fin 256) (l : Fin 128) :
    up2 (F := Ideal) x0 p (ix2 r l) = p (ix2 r l) + ∑ g : Fin 32, x0 (ix2 r (lane g l)) * x0 (ix2 r (lane g l)) := by
  show shapeCast S256x128 (addf p (multiReduction (F := Ideal) .add [1] S256x128
    (mulf (shapeCast S256x32x128 x0 shapeCasts_S256x4096_S256x32x128) (shapeCast S256x32x128 x0 shapeCasts_S256x4096_S256x32x128))
    0x00000000#32 reduces_S256x32x128_S256x128 (.inl rfl) rfl)) shapeCasts_S256x128_S256x128 (ix2 r l) = _
  rw [shapeCast_self]
  show p (ix2 r l) + multiReduction (F := Ideal) .add [1] S256x128
    (mulf (shapeCast S256x32x128 x0 shapeCasts_S256x4096_S256x32x128) (shapeCast S256x32x128 x0 shapeCasts_S256x4096_S256x32x128))
    0x00000000#32 reduces_S256x32x128_S256x128 (.inl rfl) rfl (ix2 r l) = _
  rw [groupSum_apply]
  refine congrArg (p (ix2 r l) + ·) (Finset.sum_congr rfl fun g _ => ?_)
  rw [mulf_apply, regroup_apply]

/-- The running sum of `y²` advanced. -/
theorem up3_apply (x1 : FVec Ideal S256x4096 .f32) (p : FVec Ideal S256x128 .f32) (r : Fin 256) (l : Fin 128) :
    up3 (F := Ideal) x1 p (ix2 r l) = p (ix2 r l) + ∑ g : Fin 32, x1 (ix2 r (lane g l)) * x1 (ix2 r (lane g l)) := by
  show shapeCast S256x128 (addf p (multiReduction (F := Ideal) .add [1] S256x128
    (mulf (shapeCast S256x32x128 x1 shapeCasts_S256x4096_S256x32x128) (shapeCast S256x32x128 x1 shapeCasts_S256x4096_S256x32x128))
    0x00000000#32 reduces_S256x32x128_S256x128 (.inl rfl) rfl)) shapeCasts_S256x128_S256x128 (ix2 r l) = _
  rw [shapeCast_self]
  show p (ix2 r l) + multiReduction (F := Ideal) .add [1] S256x128
    (mulf (shapeCast S256x32x128 x1 shapeCasts_S256x4096_S256x32x128) (shapeCast S256x32x128 x1 shapeCasts_S256x4096_S256x32x128))
    0x00000000#32 reduces_S256x32x128_S256x128 (.inl rfl) rfl (ix2 r l) = _
  rw [groupSum_apply]
  refine congrArg (p (ix2 r l) + ·) (Finset.sum_congr rfl fun g _ => ?_)
  rw [mulf_apply, regroup_apply]

/-- The running sum of `x·y` advanced. -/
theorem up4_apply (x0 x1 : FVec Ideal S256x4096 .f32) (p : FVec Ideal S256x128 .f32) (r : Fin 256) (l : Fin 128) :
    up4 (F := Ideal) x0 x1 p (ix2 r l) = p (ix2 r l) + ∑ g : Fin 32, x0 (ix2 r (lane g l)) * x1 (ix2 r (lane g l)) := by
  show shapeCast S256x128 (addf p (multiReduction (F := Ideal) .add [1] S256x128
    (mulf (shapeCast S256x32x128 x0 shapeCasts_S256x4096_S256x32x128) (shapeCast S256x32x128 x1 shapeCasts_S256x4096_S256x32x128))
    0x00000000#32 reduces_S256x32x128_S256x128 (.inl rfl) rfl)) shapeCasts_S256x128_S256x128 (ix2 r l) = _
  rw [shapeCast_self]
  show p (ix2 r l) + multiReduction (F := Ideal) .add [1] S256x128
    (mulf (shapeCast S256x32x128 x0 shapeCasts_S256x4096_S256x32x128) (shapeCast S256x32x128 x1 shapeCasts_S256x4096_S256x32x128))
    0x00000000#32 reduces_S256x32x128_S256x128 (.inl rfl) rfl (ix2 r l) = _
  rw [groupSum_apply]
  refine congrArg (p (ix2 r l) + ·) (Finset.sum_congr rfl fun g _ => ?_)
  rw [mulf_apply, regroup_apply, regroup_apply]

/-- A zeroed buffer reads zero. -/
theorem zero_apply (j : S256x128.Idx) : (k0_pay9 (F := Ideal)) j = 0 ∧ (k0_pay10 (F := Ideal)) j = 0 ∧ (k0_pay11 (F := Ideal)) j = 0
    ∧ (k0_pay12 (F := Ideal)) j = 0 ∧ (k0_pay13 (F := Ideal)) j = 0 := by
  refine ⟨?_, ?_, ?_, ?_, ?_⟩ <;>
  · show shapeCast S256x128 (broadcast S256x128 (Scalar.ofBits (F := Ideal) .f32 0x00000000#32)) shapeCasts_S256x128_S256x128 j = 0
    rw [shapeCast_self]
    exact Ideal.ofBits_zero_f32

/-- A buffer's lane total kept as a column, read at row `r`. -/
theorem laneTotal_apply (v : FVec Ideal S256x128 .f32) (r : Fin 256) (u : Fin 1) :
    shapeCast S256x1 (multiReduction (F := Ideal) .add [1] S256 v 0x00000000#32 reduces_S256x128_S256 (.inl rfl) rfl) shapeCasts_S256_S256x1 (ix2 r u)
      = ∑ l : Fin 128, v (ix2 r l) :=
  (Cert.Lib.ColumnLayout.shapeCast_a_a1_apply _ shapeCasts_S256_S256x1 r u).trans
    (Cert.Lib.ReduceLayout.sum_axis1_apply v _ reduces_S256x128_S256 _ _ r)

/-- The loss block read at row `r`: the concordance loss from the raw moments, the five sums being the lane totals. -/
theorem lossBlock_apply (n0 n1 n2 n3 n4 : FVec Ideal S256x128 .f32) (r : Fin 256) (u : Fin 1) :
    lossBlock (F := Ideal) n0 n1 n2 n3 n4 (ix2 r u)
      = lossOf ((∑ l : Fin 128, n0 (ix2 r l)) * wC) ((∑ l : Fin 128, n1 (ix2 r l)) * wC)
          ((∑ l : Fin 128, n2 (ix2 r l)) * wC - ((∑ l : Fin 128, n0 (ix2 r l)) * wC) * ((∑ l : Fin 128, n0 (ix2 r l)) * wC))
          ((∑ l : Fin 128, n3 (ix2 r l)) * wC - ((∑ l : Fin 128, n1 (ix2 r l)) * wC) * ((∑ l : Fin 128, n1 (ix2 r l)) * wC))
          ((∑ l : Fin 128, n4 (ix2 r l)) * wC - ((∑ l : Fin 128, n0 (ix2 r l)) * wC) * ((∑ l : Fin 128, n1 (ix2 r l)) * wC)) := by
  have e0 := laneTotal_apply n0 r u
  have e1 := laneTotal_apply n1 r u
  have e2 := laneTotal_apply n2 r u
  have e3 := laneTotal_apply n3 r u
  have e4 := laneTotal_apply n4 r u
  unfold lossOf
  rw [← e0, ← e1, ← e2, ← e3, ← e4]
  rfl

end Cert.KernelIdeal.Payloads

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.LaneRuns.lean ====
/-
  A row of `65536 = 16 · 32 · 128` columns summed lane by lane.

  Column `k` of a row is `s · 4096 + g · 128 + l`: column block `s` of sixteen, lane group `g` of thirty-two inside
  the block, lane `l` of 128.  In a commutative monoid the sum over all columns is the sum, over the lanes, of each
  lane's total over the blocks and the groups: a regrouping of a finite sum, so on the extended reals nothing needs
  to be finite.  The same for the `512 = 2 · 256` rows: row `b · 256 + r`.
-/
import proofs.«148657_j45646912422065_2_alg».proof.Proof.LibBlockRuns

namespace Cert.CCC

open Cert.Lib.BlockRuns

/-- Column `s · 4096 + g · 128 + l`. -/
def col (s : Fin 16) (g : Fin 32) (l : Fin 128) : Fin 65536 :=
  ⟨s.val * 4096 + (g.val * 128 + l.val), by have := s.isLt; have := g.isLt; have := l.isLt; omega⟩

/-- Row `b · 256 + r`. -/
def row (b : Fin 2) (r : Fin 256) : Fin 512 :=
  ⟨b.val * 256 + r.val, by have := b.isLt; have := r.isLt; omega⟩

/-- The sum over the columns, taken lane by lane. -/
theorem sum_cols {M : Type*} [AddCommMonoid M] (f : Fin 65536 → M) :
    ∑ k, f k = ∑ l : Fin 128, ∑ s : Fin 16, ∑ g : Fin 32, f (col s g l) := by
  rw [sum_runs 16 4096 65536 rfl f]
  have h : ∀ s : Fin 16, ∑ r : Fin 4096, f (runIdx 16 4096 65536 rfl s r) = ∑ l : Fin 128, ∑ g : Fin 32, f (col s g l) := by
    intro s
    rw [sum_runs 32 128 4096 rfl, Finset.sum_comm]
    rfl
  rw [Finset.sum_congr rfl fun s _ => h s, Finset.sum_comm]

/-- The sum over the rows, taken row block by row block. -/
theorem sum_rows {M : Type*} [AddCommMonoid M] (f : Fin 512 → M) :
    ∑ p, f p = ∑ b : Fin 2, ∑ r : Fin 256, f (row b r) :=
  sum_runs 2 256 512 rfl f

end Cert.CCC
-- ==== Proof.LibRunningSum.lean ====
/-
  A running sum over the first blocks of `n`.

  A computation that visits `n` blocks in order and keeps the total of the blocks seen so far holds, after block `e`,
  `upTo F e`: the sum of `F s` over the blocks `s ≤ e`.  It starts at `F 0`, grows by `F (e + 1)` at each step, and from the last
  block on is the sum over all of them.  In any commutative monoid, so on the extended reals nothing needs to be finite.
-/
import Mathlib.Algebra.BigOperators.Fin
import Mathlib.Tactic.Linarith

namespace Cert.Lib.RunningSum

variable {M : Type*} [AddCommMonoid M] {n : ℕ}

/-- The sum of `F s` over the blocks `s ≤ e`. -/
def upTo (F : Fin n → M) (e : ℕ) : M := ∑ s : Fin n, if s.val ≤ e then F s else 0

theorem upTo_zero [NeZero n] (F : Fin n → M) : upTo F 0 = F 0 := by
  unfold upTo
  rw [Finset.sum_eq_single (0 : Fin n)]
  · simp
  · intro s _ hs
    have : ¬ s.val ≤ 0 := fun h => hs (Fin.ext (by simpa using h))
    rw [if_neg this]
  · intro h; exact absurd (Finset.mem_univ _) h

theorem upTo_succ (F : Fin n → M) (e : ℕ) (he : e + 1 < n) : upTo F (e + 1) = upTo F e + F ⟨e + 1, he⟩ := by
  unfold upTo
  have h : ∀ s : Fin n, (if s.val ≤ e + 1 then F s else 0)
      = (if s.val ≤ e then F s else 0) + (if s = ⟨e + 1, he⟩ then F s else 0) := by
    intro s
    by_cases h1 : s.val ≤ e
    · have h2 : s.val ≤ e + 1 := by omega
      have h3 : ¬ s = ⟨e + 1, he⟩ := fun h => by have := congrArg Fin.val h; simp at this; omega
      rw [if_pos h1, if_pos h2, if_neg h3, add_zero]
    · by_cases h2 : s = ⟨e + 1, he⟩
      · have h3 : s.val ≤ e + 1 := by rw [h2]
        rw [if_neg h1, if_pos h3, if_pos h2, zero_add]
      · have h3 : ¬ s.val ≤ e + 1 := fun h => h2 (Fin.ext (by show s.val = e + 1; omega))
        rw [if_neg h1, if_neg h3, if_neg h2, add_zero]
  rw [Finset.sum_congr rfl fun s _ => h s, Finset.sum_add_distrib, Finset.sum_ite_eq' Finset.univ (⟨e + 1, he⟩ : Fin n) F,
    if_pos (Finset.mem_univ _)]

theorem upTo_full (F : Fin n → M) (e : ℕ) (he : n ≤ e + 1) : upTo F e = ∑ s, F s := by
  unfold upTo
  refine Finset.sum_congr rfl fun s _ => ?_
  rw [if_pos (by have := s.isLt; omega)]

end Cert.Lib.RunningSum
-- ==== Proof.RunningSums.lean ====
/-
  What the five running-sum buffers hold after every grid point, and the loss block the last column block stores.

  The grid is two row blocks of sixteen column blocks; point `n` is column block `n % 16` of row block `n / 16`, and
  its input blocks are the rows `(n / 16) · 256 + r`, columns `(n % 16) · 4096 + k` of the two argument arrays.  After
  point `n` buffer `j` holds, at `(r, l)`, the total over the column blocks `s ≤ n % 16` and the lane groups `g` of the
  entries (of `x`, `y`, `x²`, `y²`, `x·y`) in row `(n / 16) · 256 + r`, column `s · 4096 + g · 128 + l`: by induction on the
  point, the first column block of a row block starting from the zeroed buffer.  After the last column block the lane
  totals are therefore the sums over the whole row, and the stored loss is the row's loss from the raw moments.
-/
import proofs.«148657_j45646912422065_2_alg».proof.Proof.Payloads
import proofs.«148657_j45646912422065_2_alg».proof.Proof.LaneRuns
import proofs.«148657_j45646912422065_2_alg».proof.Proof.LibRunningSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.KernelIdeal.Pieces Cert.KernelIdeal.Payloads Cert.CCC Cert.Lib.RunningSum

variable (m : (ℓ : Loc nD τ sig) → Buf (Elt Ideal) ℓ)

/-- The two argument arrays, entry `(p, q)`. -/
abbrev argX (c : Dev nD) (p : Fin 512) (q : Fin 65536) : EReal := m ((c : Thread nD τ).loc main_arg0) (ix2 p q)
abbrev argY (c : Dev nD) (p : Fin 512) (q : Fin 65536) : EReal := m ((c : Thread nD τ).loc main_arg1) (ix2 p q)

/-- The windows' block indices at point `t`: row block `t / 16`, column block `t % 16`; the output's column block is `0`. -/
theorem idx_facts : ∀ t : Fin cfg0.N, win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N, _)

/-- The two input blocks at point `t`. -/
abbrev blkX (c : Dev nD) (t : Fin cfg0.N) : FVec Ideal S256x4096 .f32 := iblk m c 0 t
abbrev blkY (c : Dev nD) (t : Fin cfg0.N) : FVec Ideal S256x4096 .f32 := iblk m c 1 t

/-- Entry `(r, k)` of the first input's block at point `t` is the first argument at row `(t / 16) · 256 + r`, column
    `(t % 16) · 4096 + k`. -/
theorem iblk0_apply (c : Dev nD) (t : Fin cfg0.N) (r : Fin 256) (k : Fin 4096) (p : Fin 512) (q : Fin 65536)
    (hp : p.val = t.val / 16 * 256 + r.val) (hq : q.val = t.val % 16 * 4096 + k.val) :
    blkX m c t (ix2 r k) = argX m c p q := by
  obtain ⟨e0, e1, -⟩ := idx_facts t
  unfold blkX iblk
  rw [View.read_apply]
  show m ((c : Thread nD τ).loc main_arg0) _ = m ((c : Thread nD τ).loc main_arg0) _
  refine congrArg _ (funext fun a => Fin.ext ?_)
  match a with
  | ⟨0, _⟩ => show win0_0.index t (0 : Fin 2) * 256 + 1 * r.val = p.val; rw [e0, hp]; omega
  | ⟨1, _⟩ => show win0_0.index t (1 : Fin 2) * 4096 + 1 * k.val = q.val; rw [e1, hq]; omega

/-- The same for the second input. -/
theorem iblk1_apply (c : Dev nD) (t : Fin cfg0.N) (r : Fin 256) (k : Fin 4096) (p : Fin 512) (q : Fin 65536)
    (hp : p.val = t.val / 16 * 256 + r.val) (hq : q.val = t.val % 16 * 4096 + k.val) :
    blkY m c t (ix2 r k) = argY m c p q := by
  obtain ⟨-, -, e0, e1, -⟩ := idx_facts t
  unfold blkY iblk
  rw [View.read_apply]
  show m ((c : Thread nD τ).loc main_arg1) _ = m ((c : Thread nD τ).loc main_arg1) _
  refine congrArg _ (funext fun a => Fin.ext ?_)
  match a with
  | ⟨0, _⟩ => show win0_1.index t (0 : Fin 2) * 256 + 1 * r.val = p.val; rw [e0, hp]; omega
  | ⟨1, _⟩ => show win0_1.index t (1 : Fin 2) * 4096 + 1 * k.val = q.val; rw [e1, hq]; omega

/-! ## The buffers after a point, from the buffers after the point before -/

/-- Buffer 0 after the first column block of a row block. -/
theorem sc0_first (c : Dev nD) (t : Fin cfg0.N) (h0 : t.val % 16 = 0) :
    (outsAt0 m c t.val t.isLt).2.1 = up0 (F := Ideal) (blkX m c t) (k0_pay9 (F := Ideal)) := by
  have h1 : ¬ t.val % 16 = 15 := by omega
  refine (congrArg (fun z => z.2.1) (outsAt0_A m c t h0 h1)).trans ?_
  exact first_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun hh => h1 ((hcond0_1 t).mp hh)) (iblk m c 0 t) (iblk m c 1 t)

/-- Buffer 0 after a later column block. -/
theorem sc0_next (c : Dev nD) (t : Fin cfg0.N) (h0 : ¬ t.val % 16 = 0) :
    (outsAt0 m c t.val t.isLt).2.1 = up0 (F := Ideal) (blkX m c t) (outsAt0 m c (t.val - 1) (Nat.lt_of_le_of_lt (Nat.sub_le _ _) t.isLt)).2.1 := by
  by_cases h1 : t.val % 16 = 15
  · refine (congrArg (fun z => z.2.1) (outsAt0_C m c t h0 h1)).trans ?_
    exact last_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine (congrArg (fun z => z.2.1) (outsAt0_B m c t h0 h1)).trans ?_
    exact middle_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Buffer 1 after the first column block of a row block. -/
theorem sc1_first (c : Dev nD) (t : Fin cfg0.N) (h0 : t.val % 16 = 0) :
    (outsAt0 m c t.val t.isLt).2.2.1 = up1 (F := Ideal) (blkY m c t) (k0_pay10 (F := Ideal)) := by
  have h1 : ¬ t.val % 16 = 15 := by omega
  refine (congrArg (fun z => z.2.2.1) (outsAt0_A m c t h0 h1)).trans ?_
  exact first_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun hh => h1 ((hcond0_1 t).mp hh)) (iblk m c 0 t) (iblk m c 1 t)

/-- Buffer 1 after a later column block. -/
theorem sc1_next (c : Dev nD) (t : Fin cfg0.N) (h0 : ¬ t.val % 16 = 0) :
    (outsAt0 m c t.val t.isLt).2.2.1 = up1 (F := Ideal) (blkY m c t) (outsAt0 m c (t.val - 1) (Nat.lt_of_le_of_lt (Nat.sub_le _ _) t.isLt)).2.2.1 := by
  by_cases h1 : t.val % 16 = 15
  · refine (congrArg (fun z => z.2.2.1) (outsAt0_C m c t h0 h1)).trans ?_
    exact last_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine (congrArg (fun z => z.2.2.1) (outsAt0_B m c t h0 h1)).trans ?_
    exact middle_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Buffer 2 after the first column block of a row block. -/
theorem sc2_first (c : Dev nD) (t : Fin cfg0.N) (h0 : t.val % 16 = 0) :
    (outsAt0 m c t.val t.isLt).2.2.2.1 = up2 (F := Ideal) (blkX m c t) (k0_pay11 (F := Ideal)) := by
  have h1 : ¬ t.val % 16 = 15 := by omega
  refine (congrArg (fun z => z.2.2.2.1) (outsAt0_A m c t h0 h1)).trans ?_
  exact first_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun hh => h1 ((hcond0_1 t).mp hh)) (iblk m c 0 t) (iblk m c 1 t)

/-- Buffer 2 after a later column block. -/
theorem sc2_next (c : Dev nD) (t : Fin cfg0.N) (h0 : ¬ t.val % 16 = 0) :
    (outsAt0 m c t.val t.isLt).2.2.2.1 = up2 (F := Ideal) (blkX m c t) (outsAt0 m c (t.val - 1) (Nat.lt_of_le_of_lt (Nat.sub_le _ _) t.isLt)).2.2.2.1 := by
  by_cases h1 : t.val % 16 = 15
  · refine (congrArg (fun z => z.2.2.2.1) (outsAt0_C m c t h0 h1)).trans ?_
    exact last_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine (congrArg (fun z => z.2.2.2.1) (outsAt0_B m c t h0 h1)).trans ?_
    exact middle_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Buffer 3 after the first column block of a row block. -/
theorem sc3_first (c : Dev nD) (t : Fin cfg0.N) (h0 : t.val % 16 = 0) :
    (outsAt0 m c t.val t.isLt).2.2.2.2.1 = up3 (F := Ideal) (blkY m c t) (k0_pay12 (F := Ideal)) := by
  have h1 : ¬ t.val % 16 = 15 := by omega
  refine (congrArg (fun z => z.2.2.2.2.1) (outsAt0_A m c t h0 h1)).trans ?_
  exact first_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun hh => h1 ((hcond0_1 t).mp hh)) (iblk m c 0 t) (iblk m c 1 t)

/-- Buffer 3 after a later column block. -/
theorem sc3_next (c : Dev nD) (t : Fin cfg0.N) (h0 : ¬ t.val % 16 = 0) :
    (outsAt0 m c t.val t.isLt).2.2.2.2.1 = up3 (F := Ideal) (blkY m c t) (outsAt0 m c (t.val - 1) (Nat.lt_of_le_of_lt (Nat.sub_le _ _) t.isLt)).2.2.2.2.1 := by
  by_cases h1 : t.val % 16 = 15
  · refine (congrArg (fun z => z.2.2.2.2.1) (outsAt0_C m c t h0 h1)).trans ?_
    exact last_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine (congrArg (fun z => z.2.2.2.2.1) (outsAt0_B m c t h0 h1)).trans ?_
    exact middle_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- Buffer 4 after the first column block of a row block. -/
theorem sc4_first (c : Dev nD) (t : Fin cfg0.N) (h0 : t.val % 16 = 0) :
    (outsAt0 m c t.val t.isLt).2.2.2.2.2 = up4 (F := Ideal) (blkX m c t) (blkY m c t) (k0_pay13 (F := Ideal)) := by
  have h1 : ¬ t.val % 16 = 15 := by omega
  refine (congrArg (fun z => z.2.2.2.2.2) (outsAt0_A m c t h0 h1)).trans ?_
  exact first_4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun hh => h1 ((hcond0_1 t).mp hh)) (iblk m c 0 t) (iblk m c 1 t)

/-- Buffer 4 after a later column block. -/
theorem sc4_next (c : Dev nD) (t : Fin cfg0.N) (h0 : ¬ t.val % 16 = 0) :
    (outsAt0 m c t.val t.isLt).2.2.2.2.2 = up4 (F := Ideal) (blkX m c t) (blkY m c t) (outsAt0 m c (t.val - 1) (Nat.lt_of_le_of_lt (Nat.sub_le _ _) t.isLt)).2.2.2.2.2 := by
  by_cases h1 : t.val % 16 = 15
  · refine (congrArg (fun z => z.2.2.2.2.2) (outsAt0_C m c t h0 h1)).trans ?_
    exact last_4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine (congrArg (fun z => z.2.2.2.2.2) (outsAt0_B m c t h0 h1)).trans ?_
    exact middle_4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) (fun hh => h1 ((hcond0_1 t).mp hh)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The output block after the last column block of a row block: the loss block of the five buffers as they then stand. -/
theorem out_last (c : Dev nD) (t : Fin cfg0.N) (h1 : t.val % 16 = 15) :
    (outsAt0 m c t.val t.isLt).1 = lossBlock (F := Ideal) (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  have h0 : ¬ t.val % 16 = 0 := by omega
  rw [sc0_next m c t h0, sc1_next m c t h0, sc2_next m c t h0, sc3_next m c t h0, sc4_next m c t h0]
  refine (congrArg (fun z => z.1) (outsAt0_C m c t h0 h1)).trans ?_
  exact last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The point before point `n + 1` is point `n`. -/
theorem outs_pred (c : Dev nD) (n : ℕ) (h : n + 1 < cfg0.N) (p : n + 1 - 1 < cfg0.N) :
    outsAt0 m c (n + 1 - 1) p = outsAt0 m c n (Nat.lt_of_succ_lt h) := by
  have key : ∀ (k : ℕ) (hk : k < cfg0.N), k = n → outsAt0 m c k hk = outsAt0 m c n (Nat.lt_of_succ_lt h) := by
    intro k hk e; subst e; rfl
  exact key _ p (Nat.add_sub_cancel n 1)

/-! ## The running sums -/

/-- Lane `l`'s total over the lane groups of column block `s`, in row `b · 256 + r`. -/
def laneSum (f : Fin 512 → Fin 65536 → EReal) (b : Fin 2) (r : Fin 256) (l : Fin 128) (s : Fin 16) : EReal :=
  ∑ g : Fin 32, f (row b r) (col s g l)

/-- Point `n`'s column block. -/
def blockOf (n : ℕ) : Fin 16 := ⟨n % 16, Nat.mod_lt _ (by norm_num)⟩

theorem step_first {f : Fin 512 → Fin 65536 → EReal} {b : Fin 2} {r : Fin 256} {l : Fin 128} (S : EReal) (n : ℕ) (h0 : n % 16 = 0)
    (hS : S = 0 + laneSum f b r l (blockOf n)) : S = upTo (laneSum f b r l) (n % 16) := by
  have e : blockOf n = 0 := Fin.ext (by show n % 16 = 0; exact h0)
  rw [hS, zero_add, h0, e, upTo_zero]

theorem step_next {f : Fin 512 → Fin 65536 → EReal} {b : Fin 2} {r : Fin 256} {l : Fin 128} (S Sprev : EReal) (n : ℕ)
    (h0 : ¬ (n + 1) % 16 = 0) (hprev : Sprev = upTo (laneSum f b r l) (n % 16))
    (hS : S = Sprev + laneSum f b r l (blockOf (n + 1))) : S = upTo (laneSum f b r l) ((n + 1) % 16) := by
  have e : (n + 1) % 16 = n % 16 + 1 := by omega
  have he : n % 16 + 1 < 16 := by omega
  have eb : blockOf (n + 1) = ⟨n % 16 + 1, he⟩ := Fin.ext (by show (n + 1) % 16 = n % 16 + 1; exact e)
  rw [hS, hprev, e, upTo_succ _ _ he, eb]

theorem hrow (n : ℕ) (h : n < cfg0.N) (b : Fin 2) (hb : b.val = n / 16) (r : Fin 256) :
    (row b r).val = (⟨n, h⟩ : Fin cfg0.N).val / 16 * 256 + r.val := by
  show b.val * 256 + r.val = n / 16 * 256 + r.val
  rw [hb]

theorem hcol (n : ℕ) (h : n < cfg0.N) (l : Fin 128) (g : Fin 32) :
    (col (blockOf n) g l).val = (⟨n, h⟩ : Fin cfg0.N).val % 16 * 4096 + (lane g l).val := rfl

/-- The point's blocks summed over the lane groups are the arguments' entries summed over them. -/
theorem blockX (c : Dev nD) (n : ℕ) (h : n < cfg0.N) (b : Fin 2) (hb : b.val = n / 16) (r : Fin 256) (l : Fin 128) :
    ∑ g : Fin 32, blkX m c ⟨n, h⟩ (ix2 r (lane g l)) = laneSum (argX m c) b r l (blockOf n) :=
  Finset.sum_congr rfl fun g _ => iblk0_apply m c ⟨n, h⟩ r (lane g l) (row b r) (col (blockOf n) g l) (hrow n h b hb r) (hcol n h l g)

theorem blockY (c : Dev nD) (n : ℕ) (h : n < cfg0.N) (b : Fin 2) (hb : b.val = n / 16) (r : Fin 256) (l : Fin 128) :
    ∑ g : Fin 32, blkY m c ⟨n, h⟩ (ix2 r (lane g l)) = laneSum (argY m c) b r l (blockOf n) :=
  Finset.sum_congr rfl fun g _ => iblk1_apply m c ⟨n, h⟩ r (lane g l) (row b r) (col (blockOf n) g l) (hrow n h b hb r) (hcol n h l g)

theorem blockXX (c : Dev nD) (n : ℕ) (h : n < cfg0.N) (b : Fin 2) (hb : b.val = n / 16) (r : Fin 256) (l : Fin 128) :
    ∑ g : Fin 32, blkX m c ⟨n, h⟩ (ix2 r (lane g l)) * blkX m c ⟨n, h⟩ (ix2 r (lane g l))
      = laneSum (fun p q => argX m c p q * argX m c p q) b r l (blockOf n) :=
  Finset.sum_congr rfl fun g _ => by
    rw [iblk0_apply m c ⟨n, h⟩ r (lane g l) (row b r) (col (blockOf n) g l) (hrow n h b hb r) (hcol n h l g)]

theorem blockYY (c : Dev nD) (n : ℕ) (h : n < cfg0.N) (b : Fin 2) (hb : b.val = n / 16) (r : Fin 256) (l : Fin 128) :
    ∑ g : Fin 32, blkY m c ⟨n, h⟩ (ix2 r (lane g l)) * blkY m c ⟨n, h⟩ (ix2 r (lane g l))
      = laneSum (fun p q => argY m c p q * argY m c p q) b r l (blockOf n) :=
  Finset.sum_congr rfl fun g _ => by
    rw [iblk1_apply m c ⟨n, h⟩ r (lane g l) (row b r) (col (blockOf n) g l) (hrow n h b hb r) (hcol n h l g)]

theorem blockXY (c : Dev nD) (n : ℕ) (h : n < cfg0.N) (b : Fin 2) (hb : b.val = n / 16) (r : Fin 256) (l : Fin 128) :
    ∑ g : Fin 32, blkX m c ⟨n, h⟩ (ix2 r (lane g l)) * blkY m c ⟨n, h⟩ (ix2 r (lane g l))
      = laneSum (fun p q => argX m c p q * argY m c p q) b r l (blockOf n) :=
  Finset.sum_congr rfl fun g _ => by
    rw [iblk0_apply m c ⟨n, h⟩ r (lane g l) (row b r) (col (blockOf n) g l) (hrow n h b hb r) (hcol n h l g),
      iblk1_apply m c ⟨n, h⟩ r (lane g l) (row b r) (col (blockOf n) g l) (hrow n h b hb r) (hcol n h l g)]

/-- After point `n` each buffer holds, per row and lane, the total over the column blocks up to `n % 16`. -/
def Inv (c : Dev nD) (n : ℕ) (h : n < cfg0.N) : Prop :=
  ∀ (b : Fin 2), b.val = n / 16 → ∀ (r : Fin 256) (l : Fin 128),
    (outsAt0 m c n h).2.1 (ix2 r l) = upTo (laneSum (argX m c) b r l) (n % 16)
    ∧ (outsAt0 m c n h).2.2.1 (ix2 r l) = upTo (laneSum (argY m c) b r l) (n % 16)
    ∧ (outsAt0 m c n h).2.2.2.1 (ix2 r l) = upTo (laneSum (fun p q => argX m c p q * argX m c p q) b r l) (n % 16)
    ∧ (outsAt0 m c n h).2.2.2.2.1 (ix2 r l) = upTo (laneSum (fun p q => argY m c p q * argY m c p q) b r l) (n % 16)
    ∧ (outsAt0 m c n h).2.2.2.2.2 (ix2 r l) = upTo (laneSum (fun p q => argX m c p q * argY m c p q) b r l) (n % 16)

theorem inv_first (c : Dev nD) (n : ℕ) (h : n < cfg0.N) (h0 : n % 16 = 0) : Inv m c n h := by
  intro b hb r l
  have z := zero_apply (ix2 r l)
  refine ⟨?_, ?_, ?_, ?_, ?_⟩
  · refine step_first _ n h0 ?_
    refine (congrFun (sc0_first m c ⟨n, h⟩ h0) (ix2 r l)).trans ?_
    refine (up0_apply (blkX m c ⟨n, h⟩) (k0_pay9 (F := Ideal)) r l).trans ?_
    rw [z.1, blockX m c n h b hb r l]
  · refine step_first _ n h0 ?_
    refine (congrFun (sc1_first m c ⟨n, h⟩ h0) (ix2 r l)).trans ?_
    refine (up1_apply (blkY m c ⟨n, h⟩) (k0_pay10 (F := Ideal)) r l).trans ?_
    rw [z.2.1, blockY m c n h b hb r l]
  · refine step_first _ n h0 ?_
    refine (congrFun (sc2_first m c ⟨n, h⟩ h0) (ix2 r l)).trans ?_
    refine (up2_apply (blkX m c ⟨n, h⟩) (k0_pay11 (F := Ideal)) r l).trans ?_
    rw [z.2.2.1, blockXX m c n h b hb r l]
  · refine step_first _ n h0 ?_
    refine (congrFun (sc3_first m c ⟨n, h⟩ h0) (ix2 r l)).trans ?_
    refine (up3_apply (blkY m c ⟨n, h⟩) (k0_pay12 (F := Ideal)) r l).trans ?_
    rw [z.2.2.2.1, blockYY m c n h b hb r l]
  · refine step_first _ n h0 ?_
    refine (congrFun (sc4_first m c ⟨n, h⟩ h0) (ix2 r l)).trans ?_
    refine (up4_apply (blkX m c ⟨n, h⟩) (blkY m c ⟨n, h⟩) (k0_pay13 (F := Ideal)) r l).trans ?_
    rw [z.2.2.2.2, blockXY m c n h b hb r l]

theorem inv_next (c : Dev nD) (n : ℕ) (h : n + 1 < cfg0.N) (h0 : ¬ (n + 1) % 16 = 0) (ih : Inv m c n (Nat.lt_of_succ_lt h)) :
    Inv m c (n + 1) h := by
  intro b hb r l
  have hb' : b.val = n / 16 := by omega
  have hp := outs_pred m c n h (Nat.lt_of_le_of_lt (Nat.sub_le _ _) h)
  obtain ⟨i0, i1, i2, i3, i4⟩ := ih b hb' r l
  rw [← hp] at i0 i1 i2 i3 i4
  refine ⟨?_, ?_, ?_, ?_, ?_⟩
  · refine step_next _ _ n h0 i0 ?_
    refine (congrFun (sc0_next m c ⟨n + 1, h⟩ h0) (ix2 r l)).trans ?_
    refine (up0_apply (blkX m c ⟨n + 1, h⟩) _ r l).trans ?_
    rw [blockX m c (n + 1) h b hb r l]
  · refine step_next _ _ n h0 i1 ?_
    refine (congrFun (sc1_next m c ⟨n + 1, h⟩ h0) (ix2 r l)).trans ?_
    refine (up1_apply (blkY m c ⟨n + 1, h⟩) _ r l).trans ?_
    rw [blockY m c (n + 1) h b hb r l]
  · refine step_next _ _ n h0 i2 ?_
    refine (congrFun (sc2_next m c ⟨n + 1, h⟩ h0) (ix2 r l)).trans ?_
    refine (up2_apply (blkX m c ⟨n + 1, h⟩) _ r l).trans ?_
    rw [blockXX m c (n + 1) h b hb r l]
  · refine step_next _ _ n h0 i3 ?_
    refine (congrFun (sc3_next m c ⟨n + 1, h⟩ h0) (ix2 r l)).trans ?_
    refine (up3_apply (blkY m c ⟨n + 1, h⟩) _ r l).trans ?_
    rw [blockYY m c (n + 1) h b hb r l]
  · refine step_next _ _ n h0 i4 ?_
    refine (congrFun (sc4_next m c ⟨n + 1, h⟩ h0) (ix2 r l)).trans ?_
    refine (up4_apply (blkX m c ⟨n + 1, h⟩) (blkY m c ⟨n + 1, h⟩) _ r l).trans ?_
    rw [blockXY m c (n + 1) h b hb r l]

theorem inv (c : Dev nD) : ∀ (n : ℕ) (h : n < cfg0.N), Inv m c n h := by
  intro n
  induction n with
  | zero => intro h; exact inv_first m c 0 h rfl
  | succ n ih =>
    intro h
    by_cases h0 : (n + 1) % 16 = 0
    · exact inv_first m c (n + 1) h h0
    · exact inv_next m c n h h0 (ih _)

/-- All sixteen column blocks, all lanes: the whole row. -/
theorem laneTotal (f : Fin 512 → Fin 65536 → EReal) (b : Fin 2) (r : Fin 256) :
    ∑ l : Fin 128, upTo (laneSum f b r l) 15 = ∑ k : Fin 65536, f (row b r) k := by
  rw [sum_cols (fun k => f (row b r) k)]
  refine Finset.sum_congr rfl fun l _ => ?_
  rw [upTo_full _ 15 (by norm_num)]
  rfl

/-- The loss the last column block of row block `b` stores for row `r`: the row's loss from its raw moments. -/
theorem loss_at (c : Dev nD) (t : Fin cfg0.N) (h1 : t.val % 16 = 15) (b : Fin 2) (hb : b.val = t.val / 16)
    (r : Fin 256) (u : Fin 1) :
    (outsAt0 m c t.val t.isLt).1 (ix2 r u) = rowLossK (fun k => argX m c (row b r) k) (fun k => argY m c (row b r) k) := by
  rw [out_last m c t h1]
  refine (lossBlock_apply (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 r u).trans ?_
  have hI := inv m c t.val t.isLt b hb
  have e0 : ∑ l : Fin 128, (outsAt0 m c t.val t.isLt).2.1 (ix2 r l) = ∑ k : Fin 65536, (argX m c) (row b r) k := by
    rw [Finset.sum_congr rfl fun l _ => (hI r l).1, h1]
    exact laneTotal _ b r
  have e1 : ∑ l : Fin 128, (outsAt0 m c t.val t.isLt).2.2.1 (ix2 r l) = ∑ k : Fin 65536, (argY m c) (row b r) k := by
    rw [Finset.sum_congr rfl fun l _ => (hI r l).2.1, h1]
    exact laneTotal _ b r
  have e2 : ∑ l : Fin 128, (outsAt0 m c t.val t.isLt).2.2.2.1 (ix2 r l) = ∑ k : Fin 65536, (fun p q => argX m c p q * argX m c p q) (row b r) k := by
    rw [Finset.sum_congr rfl fun l _ => (hI r l).2.2.1, h1]
    exact laneTotal _ b r
  have e3 : ∑ l : Fin 128, (outsAt0 m c t.val t.isLt).2.2.2.2.1 (ix2 r l) = ∑ k : Fin 65536, (fun p q => argY m c p q * argY m c p q) (row b r) k := by
    rw [Finset.sum_congr rfl fun l _ => (hI r l).2.2.2.1, h1]
    exact laneTotal _ b r
  have e4 : ∑ l : Fin 128, (outsAt0 m c t.val t.isLt).2.2.2.2.2 (ix2 r l) = ∑ k : Fin 65536, (fun p q => argX m c p q * argY m c p q) (row b r) k := by
    rw [Finset.sum_congr rfl fun l _ => (hI r l).2.2.2.2, h1]
    exact laneTotal _ b r
  rw [e0, e1, e2, e3, e4]
  rfl

end Cert.KernelIdeal.Sums

end
-- ==== Proof.KernelValue.lean ====
/-
  The kernel's run, read: the output array of the region holds each row's loss from its raw moments, and the result is
  their mean.

  The output window's block at a point is rows `(t / 16) · 256 + r` of the one output column, and it is written back
  only after the last column block of a row block (`t % 16 = 15`); the two such points cover the array.  What is written
  back there is the loss block, which is the losses of the block's rows.  After the region the host sums the 512
  losses, starting from the zero word, and divides by the word for `512`.
-/
import proofs.«148657_j45646912422065_2_alg».proof.Proof.RunningSums
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Sums Cert.CCC

variable (m : (ℓ : Loc nD τ sig) → Buf (Elt Ideal) ℓ) (ρ : Dev nD → PrngReg)

/-- Row `p`'s loss from the raw moments of the two arguments' rows. -/
def lossK (c : Dev nD) (p : Fin 512) : EReal := rowLossK (fun k => argX m c p k) (fun k => argY m c p k)

/-- The array of the rows' losses. -/
def lossArr (c : Dev nD) : Buf (Elt Ideal) ((c : Thread nD τ).loc main_v0) := fun i => lossK m c (i 0)

/-- What a flushing point writes back is its block of the losses. -/
theorem flushed_eq (c : Dev nD) (t : Fin cfg0.N) (hf : (cfg0.win 2).flush t = true) :
    (dats m 0 c).flushed 2 t = ((cfg0.win 2).blk t).view.read (Elt Ideal) (lossArr m c) := by
  have h1 : t.val % 16 = 15 := (flush0_2 t).mp hf
  obtain ⟨-, -, -, -, e0, e1⟩ := idx_facts t
  have hN : cfg0.N = 32 := N_0
  have hlt : t.val / 16 < 2 := by have := t.isLt; omega
  show (cfg0.win 2).cut (grid0.coords t) ((dats m 0 c).after 2 t) = _
  rw [after0_2]
  funext j
  obtain ⟨r, u, rfl⟩ : ∃ (r : Fin 256) (u : Fin 1), j = ix2 r u := ⟨j 0, j 1, eq_ix2 j⟩
  show (outsAt0 m c t.val t.isLt).1 (ix2 r u) = lossArr m c (((cfg0.win 2).blk t).view.emb (ix2 r u))
  rw [loss_at m c t h1 ⟨t.val / 16, hlt⟩ rfl r u]
  unfold lossArr lossK
  have hi : (((cfg0.win 2).blk t).view.emb (ix2 r u)) 0 = row ⟨t.val / 16, hlt⟩ r :=
    Fin.ext (by show win0_2.index t (0 : Fin 2) * 256 + 1 * r.val = t.val / 16 * 256 + r.val; rw [e0]; omega)
  rw [hi]

/-- An index of the output array is in point `t`'s block iff each coordinate is in the block's range on its axis. -/
theorem mem_blk (t : Fin cfg0.N) (i : S512x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Row `p` is written back by the last column block of row block `p / 256`. -/
theorem cover (i : S512x1.Idx) : ∃ t : Fin cfg0.N, (cfg0.win 2).flush t = true ∧ i ∈ ((cfg0.win 2).blk t).view.set := by
  have hN : cfg0.N = 32 := N_0
  have hi0 : (i 0).val < 512 := (i 0).isLt
  have hi1 : (i 1).val < 1 := (i 1).isLt
  have ht : (i 0).val / 256 * 16 + 15 < cfg0.N := by omega
  refine ⟨⟨(i 0).val / 256 * 16 + 15, ht⟩, (flush0_2 _).mpr (by show ((i 0).val / 256 * 16 + 15) % 16 = 15; omega), ?_⟩
  rw [mem_blk]
  obtain ⟨-, -, -, -, e0, e1⟩ := idx_facts ⟨(i 0).val / 256 * 16 + 15, ht⟩
  intro a
  match a with
  | ⟨0, _⟩ =>
    show win0_2.index ⟨(i 0).val / 256 * 16 + 15, ht⟩ (0 : Fin 2) * 256 ≤ (i 0).val ∧ (i 0).val < win0_2.index ⟨(i 0).val / 256 * 16 + 15, ht⟩ (0 : Fin 2) * 256 + 256
    rw [e0]
    show ((i 0).val / 256 * 16 + 15) / 16 * 256 ≤ (i 0).val ∧ (i 0).val < ((i 0).val / 256 * 16 + 15) / 16 * 256 + 256
    omega
  | ⟨1, _⟩ =>
    show win0_2.index ⟨(i 0).val / 256 * 16 + 15, ht⟩ (1 : Fin 2) * 1 ≤ (i 1).val ∧ (i 1).val < win0_2.index ⟨(i 0).val / 256 * 16 + 15, ht⟩ (1 : Fin 2) * 1 + 1
    rw [e1]
    omega

/-- The output array of the region ends holding the rows' losses. -/
theorem final (c : Dev nD) : (dats m 0 c).arrAt 2 cfg0.N = lossArr m c :=
  (dats m 0 c).arrAt_eq_of_cover 2 (lossArr m c) (flushed_eq m c) (cover)

/-- The host's lines after the region, applied to the losses: their mean. -/
theorem tail_eq (c : Dev nD) :
    Pipeline.afterTail₀ cfgs (dats m) 0 (V0 m) [hostOps1] c main_v2 = fun _ => meanLoss (lossK m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0) = lossArr m c :=
    (Pipeline.withArrays_arr spec0 launch0.win.arr_inj c _ _ 2).trans (final m c)
  rw [hw]
  funext i
  have e : Host.reduceAdd (F := Ideal) (φ := .f32) (lossArr m c : FVec Ideal S512x1 .f32) (constant S_ .f32 0x00000000#32) reducesTo_S512x1_S_d0_1 h_S_ i
      = w0 + ∑ p : Fin 512, lossK m c p := by
    simp only [Host.reduceAdd, Ideal.hostReduceAdd_def]
    rw [Ideal.hostReduceAdd_total reducesTo_S512x1_S_d0_1 (fun b => b.elim0), Cert.Lib.SumLayout.sum_idx_col]
    rfl
  show Ideal.div (Host.reduceAdd (F := Ideal) (φ := .f32) (lossArr m c : FVec Ideal S512x1 .f32) (constant S_ .f32 0x00000000#32) reducesTo_S512x1_S_d0_1 h_S_ i)
    (Ideal.ofBits .f32 0x44000000#32) = meanLoss (lossK m c)
  rw [e]
  rfl

/-- The run: the result is the mean of the rows' losses, the arguments are unchanged. -/
theorem run : θ_run defs (onTc (τ := τ) (main (F := Ideal))) ⟨m, fun _ => 0, ρ⟩ fun r => ∀ c : Dev nD,
      r.2.mem ((c.tc : Thread nD τ).loc main_v2) = (fun _ => meanLoss (lossK m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference, read: its result is the mean over the rows of each row pair's concordance loss, the five numbers of a
  row taken from the centred entries.

  Stage by stage: a row's mean is the row sum (started from the zero word) divided by the word for `65536`; the
  centred entry is the entry minus its row's mean, the mean carried along the row by two broadcasts; a variance or
  covariance is the sum of the products of centred entries divided by the same word; the loss is one minus twice the
  covariance over the variances' sum plus the squared difference of the means plus the guard; and the result is the sum
  of the losses (again from the zero word) divided by the word for `512`.
-/
import proofs.«148657_j45646912422065_2_alg».proof.Proof.Gen.ReferenceIdeal.Read
import proofs.«148657_j45646912422065_2_alg».proof.Proof.Moments
import proofs.«148657_j45646912422065_2_alg».proof.Proof.LibSumLayout
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.CCC

variable (x y : FVec Ideal S512x65536 .f32)

/-- Row `p` of an array. -/
abbrev rowOf (z : FVec Ideal S512x65536 .f32) (p : Fin 512) : Fin 65536 → EReal := fun k => z (ix2 p k)

theorem idx_v0 (p : Fin 512) (k : Fin 65536) : idx_main_v0 (ix1 p) k = ix2 p k := funext fun a => by match a with | ⟨0, _⟩ => rfl | ⟨1, _⟩ => rfl
theorem idx_v3 (p : Fin 512) (k : Fin 65536) : idx_main_v3 (ix1 p) k = ix2 p k := funext fun a => by match a with | ⟨0, _⟩ => rfl | ⟨1, _⟩ => rfl
theorem idx_v13 (p : Fin 512) (k : Fin 65536) : idx_main_v13 (ix1 p) k = ix2 p k := funext fun a => by match a with | ⟨0, _⟩ => rfl | ⟨1, _⟩ => rfl
theorem idx_v17 (p : Fin 512) (k : Fin 65536) : idx_main_v17 (ix1 p) k = ix2 p k := funext fun a => by match a with | ⟨0, _⟩ => rfl | ⟨1, _⟩ => rfl
theorem idx_v21 (p : Fin 512) (k : Fin 65536) : idx_main_v21 (ix1 p) k = ix2 p k := funext fun a => by match a with | ⟨0, _⟩ => rfl | ⟨1, _⟩ => rfl
theorem idx_v7 (p : Fin 512) (k : Fin 65536) : idx_main_v6 (idx_main_v7 (ix2 p k)) = ix1 p := funext fun a => by match a with | ⟨0, _⟩ => rfl
theorem idx_v10 (p : Fin 512) (k : Fin 65536) : idx_main_v9 (idx_main_v10 (ix2 p k)) = ix1 p := funext fun a => by match a with | ⟨0, _⟩ => rfl

/-- The mean of row `p` of the first argument. -/
theorem meanX (p : Fin 512) : val_main_v2 (F := Ideal) x (ix1 p) = meanR (rowOf x p) := by
  rw [val_main_v2_apply, val_main_v0_apply, val_main_v1_apply]
  simp only [idx_v0]
  rfl

/-- The mean of row `p` of the second argument. -/
theorem meanY (p : Fin 512) : val_main_v5 (F := Ideal) y (ix1 p) = meanR (rowOf y p) := by
  rw [val_main_v5_apply, val_main_v3_apply, val_main_v4_apply]
  simp only [idx_v3]
  rfl

/-- The centred entries. -/
theorem centredX (p : Fin 512) (k : Fin 65536) : val_main_v8 (F := Ideal) x (ix2 p k) = x (ix2 p k) - meanR (rowOf x p) := by
  rw [val_main_v8_apply, val_main_v7_apply, val_main_v6_apply, idx_v7, meanX]
  rfl

theorem centredY (p : Fin 512) (k : Fin 65536) : val_main_v11 (F := Ideal) y (ix2 p k) = y (ix2 p k) - meanR (rowOf y p) := by
  rw [val_main_v11_apply, val_main_v10_apply, val_main_v9_apply, idx_v10, meanY]
  rfl

/-- The variance of row `p` of the first argument. -/
theorem varX (p : Fin 512) : val_main_v15 (F := Ideal) x (ix1 p) = covR (rowOf x p) (rowOf x p) := by
  rw [val_main_v15_apply, val_main_v13_apply, val_main_v14_apply]
  simp only [idx_v13, val_main_v12_apply, centredX]
  rfl

/-- The variance of row `p` of the second argument. -/
theorem varY (p : Fin 512) : val_main_v19 (F := Ideal) y (ix1 p) = covR (rowOf y p) (rowOf y p) := by
  rw [val_main_v19_apply, val_main_v17_apply, val_main_v18_apply]
  simp only [idx_v17, val_main_v16_apply, centredY]
  rfl

/-- The covariance of the rows `p`. -/
theorem covXY (p : Fin 512) : val_main_v23 (F := Ideal) x y (ix1 p) = covR (rowOf x p) (rowOf y p) := by
  rw [val_main_v23_apply, val_main_v21_apply, val_main_v22_apply]
  simp only [idx_v21, val_main_v20_apply, centredX, centredY]
  rfl

/-- The loss of the rows `p`. -/
theorem lossRow (p : Fin 512) : val_main_v34 (F := Ideal) x y (ix1 p) = rowLossR (rowOf x p) (rowOf y p) := by
  rw [val_main_v34_apply, val_main_v33_apply, val_main_v32_apply, val_main_v25_apply, val_main_v24_apply, val_main_v31_apply,
    val_main_v30_apply, val_main_v29_apply, val_main_v28_apply, val_main_v27_apply, val_main_v26_apply,
    varX, varY, covXY, meanX, meanY]
  rfl

/-- The reference's result. -/
theorem result_eq : val_main_v36 (F := Ideal) x y = fun _ => meanLoss fun p : Fin 512 => rowLossR (rowOf x p) (rowOf y p) := by
  funext i
  rw [val_main_v36_apply, val_main_v35_apply, Cert.Lib.SumLayout.sum_idx1]
  simp only [lossRow]
  rfl

end Cert.ReferenceIdeal.RefValue

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.LibFiniteConjunct.lean ====
/-
  One conjunct of a "every floating-point input is finite" precondition, read.

  Such a precondition is a conjunction of `jnp.all (|x| < +inf)`, one per array: a reduce-by-and, into a result of one
  index, of the comparison of each entry's absolute value against the word of plus infinity.  If the conjunct is `1`
  then every entry's absolute value `max a (-a)` is below plus infinity, so the entry is neither infinity: a real number.
  General in the array's shape and in the reduced axes.
-/
import proofs.«148657_j45646912422065_2_alg».proof.Proof.LibFinite
import Idealize.ShloMosaic.Lib.ReduceAll
import Idealize.ShloMosaic.Lib.ValueIdx

noncomputable section

namespace Cert.Lib.FiniteConjunct

open Idealize.ShloMosaic Cert.Fin

instance : Subsingleton (⟨0, ![]⟩ : Shape).Idx := ⟨fun a b => funext fun d => d.elim0⟩

/-- The word `0x7F800000` is plus infinity. -/
theorem wInf_eq : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [wInf_eq] at h
  have hlt : max a (-a) < ⊤ := by
    by_contra hc
    have : Ideal.cmp .olt (max a (-a)) ⊤ = 0#1 := by
      unfold Ideal.cmp
      simp [hc]
    rw [this] at h
    exact absurd h (by decide)
  refine isReal_of_ne (fun e => ?_) (fun e => ?_)
  · rw [e] at hlt; simp at hlt
  · rw [e] at hlt; simp at hlt

/-- One conjunct: "every entry's absolute value is below plus infinity" makes every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : AllReal x := fun i =>
  isReal_of_abs_lt_inf (x i) (Host.reduce_andi_all _ _ hr hu ValueIdx.ix0 e i)

end Cert.Lib.FiniteConjunct

end
-- ==== Proof.Finite.lean ====
/-
  The precondition, read: if "every entry of both arguments has absolute value below plus infinity" evaluates to one,
  then every entry of both arguments is a real number.  The precondition is the conjunction of one such test per
  argument; each is read on its own.
-/
import proofs.«148657_j45646912422065_2_alg».proof.Pre_finite_inputs
import proofs.«148657_j45646912422065_2_alg».proof.Proof.LibFiniteConjunct
import Idealize.ShloMosaic.Lib.Affine

noncomputable section

open Idealize.ShloMosaic

namespace Cert.Pre_finite_inputs.Reading

open Cert.Pre_finite_inputs Cert.Fin

variable [hP : Cert.Pre_finite_inputs.Facts]

/-- Under the precondition both arguments hold real numbers only. -/
theorem allReal_of_pre (x y : FVec Ideal S512x65536 .f32) (h : Cert.Pre_finite_inputs.fn (F := Ideal) x y = fun _ => 1#1) :
    AllReal x ∧ AllReal y := by
  have h0 := congrFun h ValueIdx.ix0
  dsimp only [Cert.Pre_finite_inputs.fn, andi] at h0
  obtain ⟨h1, h2⟩ := IntOp.andi_eq_one.mp h0
  exact ⟨Cert.Lib.FiniteConjunct.allReal_of_all x _ _ _ h1, Cert.Lib.FiniteConjunct.allReal_of_all y _ _ _ h2⟩

end Cert.Pre_finite_inputs.Reading

end
-- ==== Proof.lean ====
/-
  The concordance-correlation loss of two `512 × 65536` arrays, computed two ways, is one number.

  Both programs compute, for every row `p`, the loss `1 - 2·cov / (var_x + var_y + (μ_x - μ_y)² + ε)` of the rows
  `x_p`, `y_p`, and then the mean of the 512 losses.  The reference takes each row's mean first and the variances and
  the covariance from the centred entries.  The kernel makes one pass: for each row block it visits the sixteen column
  blocks in order, keeping per lane the running totals of `x`, `y`, `x²`, `y²` and `x·y`; after the last column block
  it adds the 128 lane totals of each, multiplies by `2^-16`, and forms the variances and the covariance from those
  raw moments; the host then averages the losses.

  The pieces:
    * what the five running totals hold after every grid point, by induction on the point, and so the loss block the
      last column block of a row block stores (RunningSums, over Pieces and Payloads);
    * the region's output array is the array of the rows' losses, and the host's lines after it give their mean
      (KernelValue);
    * the reference's stages, read one by one, give the mean of the rows' losses from the centred entries (RefValue);
    * a row sum taken lane by lane, block by block, is the row sum: a regrouping of a finite sum, valid on the extended
      reals (LaneRuns, ColumnBlocks);
    * for rows of real numbers the raw-moment and the centred covariance agree, since `N · 2^-16 = 1`: this is the one
      step that needs the entries finite, and it is where the precondition is used (Moments, Finite).
  The idealization rewrote nothing, so the kernel and its idealization are the same text.  The three frames are the
  generated ones; the reference's is its generated run with the result dropped.
-/
import proofs.«148657_j45646912422065_2_alg».proof.Defs
import proofs.«148657_j45646912422065_2_alg».proof.Proof.Gen.Kernel
import proofs.«148657_j45646912422065_2_alg».proof.Proof.Gen.Kernel.Skeleton
import proofs.«148657_j45646912422065_2_alg».proof.Proof.Gen.Kernel.Launch
import proofs.«148657_j45646912422065_2_alg».proof.Proof.Gen.Kernel.Points
import proofs.«148657_j45646912422065_2_alg».proof.Proof.Gen.Kernel.Frame
import proofs.«148657_j45646912422065_2_alg».proof.Proof.Gen.KernelIdeal
import proofs.«148657_j45646912422065_2_alg».proof.Proof.Gen.KernelIdeal.Skeleton
import proofs.«148657_j45646912422065_2_alg».proof.Proof.Gen.KernelIdeal.Launch
import proofs.«148657_j45646912422065_2_alg».proof.Proof.Gen.KernelIdeal.Points
import proofs.«148657_j45646912422065_2_alg».proof.Proof.Gen.KernelIdeal.Frame
import proofs.«148657_j45646912422065_2_alg».proof.Proof.Gen.ReferenceIdeal
import proofs.«148657_j45646912422065_2_alg».proof.Proof.Gen.ReferenceIdeal.Run
import proofs.«148657_j45646912422065_2_alg».proof.Proof.Gen.ReferenceIdeal.Read
import proofs.«148657_j45646912422065_2_alg».proof.Proof.Gen.Pre_finite_inputs
import proofs.«148657_j45646912422065_2_alg».proof.Proof.KernelValue
import proofs.«148657_j45646912422065_2_alg».proof.Proof.RefValue
import proofs.«148657_j45646912422065_2_alg».proof.Proof.Finite
import Idealize.ShloMosaic.Adequacy
import Idealize.ShloMosaic.Init

noncomputable section

namespace Cert.Proof

open Idealize.ShloMosaic Idealize.SL.Sem Idealize.ShloMosaic.ValueIdx Cert.CCC

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- For two arrays of real numbers, every row's loss is the same from the centred entries as from the raw moments. -/
theorem rowLoss_agree (x y : FVec Ideal Cert.ReferenceIdeal.S512x65536 .f32) (hx : Cert.Fin.AllReal x) (hy : Cert.Fin.AllReal y)
    (p : Fin 512) :
    rowLossR (fun k : Fin 65536 => x (ix2 p k)) (fun k => y (ix2 p k)) = rowLossK (fun k : Fin 65536 => x (ix2 p k)) (fun k => y (ix2 p k)) := by
  choose a ha using hx
  choose b hb using hy
  have eX : (fun k : Fin 65536 => x (ix2 p k)) = fun k => ((a (ix2 p k) : ℝ) : EReal) := funext fun k => ha _
  have eY : (fun k : Fin 65536 => y (ix2 p k)) = fun k => ((b (ix2 p k) : ℝ) : EReal) := funext fun k => hb _
  rw [eX, eY]
  exact (rowLoss_eq _ _ (Fintype.card_fin _)).symm

/-- From memories agreeing on the arguments both programs end with the mean of the rows' losses. -/
theorem algebraic : Cert.algebraic_KernelIdeal_ReferenceIdeal := by
  intro m ρ m' ρ' hpre hagree
  refine ⟨fun c => fun _ => meanLoss (Cert.KernelIdeal.Result.lossK m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2]
  obtain ⟨hx, hy⟩ := Cert.Pre_finite_inputs.Reading.allReal_of_pre _ _ (hpre c)
  funext _
  refine congrArg meanLoss (funext fun p => ?_)
  exact rowLoss_agree _ _ hx hy p

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
